-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : IVec S2x640000 32) (main_arg2 : FVec F S128x128 .f32) (main_arg3 : FVec F S128 .f32) (main_arg4 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 37
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S10000x128, .f32⟩
  | .hbm, ⟨20, _⟩ => ⟨S640000x1, .i32⟩
  | .hbm, ⟨21, _⟩ => ⟨S10000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S10000, .f32⟩
  | .hbm, ⟨26, _⟩ => ⟨S640000x1, .i32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S1x128, .f32⟩
  | .hbm, ⟨36, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  shapeCasts_S10000_S10000x1 : S10000.ShapeCasts S10000x1
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S10000x1.size a
  hwx0_1 : ∀ i : grid0.Coords, EltTy.bits .f32 = 32 ∨ (Rect.block (s := S10000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .f32 = 32 ∨ (Rect.block (s := S10000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S10000x128.size a
  hwx0_6 : ∀ i : grid0.Coords, EltTy.bits .f32 = 32 ∨ (Rect.block (s := S10000x128) S2000x128.size (cc0_transform_6 i) (hinb0_6 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S10000x128, .f32⟩
  | .hbm, ⟨20, _⟩ => ⟨S640000x1, .i32⟩
  | .hbm, ⟨21, _⟩ => ⟨S10000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S10000, .f32⟩
  | .hbm, ⟨26, _⟩ => ⟨S640000x1, .i32⟩
  | .hbm, ⟨27, _⟩ => ⟨S10000, .f32⟩
  | .hbm, ⟨28, _⟩ => ⟨S10000x1, .f32⟩
  | .hbm, ⟨29, _⟩ => ⟨S_, .f32⟩
  | .hbm, ⟨30, _⟩ => ⟨S10000x1, .f32⟩
  | .hbm, ⟨31, _⟩ => ⟨S10000x1, .i1⟩
  | .hbm, ⟨32, _⟩ => ⟨S_, .f32⟩
  | .hbm, ⟨33, _⟩ => ⟨S10000, .f32⟩
  | .hbm, ⟨34, _⟩ => ⟨S10000, .f32⟩
  | .hbm, ⟨35, _⟩ => ⟨S10000x1, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S_, .f32⟩
  | .hbm, ⟨40, _⟩ => ⟨S10000x128, .i1⟩
  | .hbm, ⟨41, _⟩ => ⟨S10000x128, .f32⟩
  | .hbm, ⟨42, _⟩ => ⟨S10000x128, .f32⟩
  | .hbm, ⟨43, _⟩ => ⟨S128x128, .f32⟩
  | .hbm, ⟨44, _⟩ => ⟨S10000x128, .f32⟩
  | .hbm, ⟨45, _⟩ => ⟨S1x128, .f32⟩
  | .hbm, ⟨46, _⟩ => ⟨S10000x128, .f32⟩
  | .hbm, ⟨47, _⟩ => ⟨S10000x128, .f32⟩
  | .hbm, ⟨48, _⟩ => ⟨S128x128, .f32⟩
  | .hbm, ⟨49, _⟩ => ⟨S10000x128, .f32⟩
  | .hbm, ⟨50, _⟩ => ⟨S10000x128, .f32⟩
  | .hbm, ⟨51, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.SegMean.lean ====
/-
  Segment sums and the mean over a segment, on the extended reals.

  Both programs aggregate the rows of a gathered [640000, 128] array into 10000 buckets with an accumulating
  scatter whose bucket numbers are one column [640000, 1] of integers, and count the bucket sizes with a second
  accumulating scatter of ones through the SAME column. At the exact instance such a scatter is, at each result
  element, the operand element plus the sum of the updates that land on it; an update lands on bucket n exactly when
  its bucket number, read as a signed integer, is n (numbers outside [0, 10000) land nowhere).

  Two facts about this pair are proved here:
    * the count at bucket n is the natural number of updates that land on n (a sum of ones);
    * an update of the row scatter that lands on element (n, k) comes from an edge whose bucket number is n, so the
      same edge is counted at n: where the count is zero, the row sum is an empty sum, that is 0.
  From them the law that joins the two programs: with A the row sum at (n, k) and c the count at n,

      A · (1 / max c 1)  =  if 0 < c then A / max c 1 else 0 .

  When c = 0 both sides are 0 (the left because A = 0 and 1 / 1 = 1); when c ≥ 1, max c 1 = c is a nonzero real and
  dividing an extended real by it is multiplying by its reciprocal. No finiteness of A is needed.
-/
import Idealize.ShloMosaic.PureOps.Ideal
import Idealize.ShloMosaic.PureOps.Ideal.Laws
import Idealize.ShloMosaic.Lib.ValueIdx
import Idealize.ShloMosaic.Lib.IdealHost

noncomputable section

namespace Cert.SegMean

open Idealize.ShloMosaic Idealize.ShloMosaic.ValueIdx

/-- The buckets [10000]. -/
abbrev SN : Shape := ⟨1, ![10000]⟩
/-- The bucket numbers as a column [640000, 1]. -/
abbrev SE1 : Shape := ⟨2, ![640000, 1]⟩
/-- The edges [640000]. -/
abbrev SE : Shape := ⟨1, ![640000]⟩
/-- The bucket rows [10000, 128]. -/
abbrev SND : Shape := ⟨2, ![10000, 128]⟩
/-- The edge rows [640000, 128]. -/
abbrev SED : Shape := ⟨2, ![640000, 128]⟩

/-- The counting scatter's dimension numbers: update e goes to bucket idx(e, 0). -/
def dDeg : ScatterDims SN SE1 SE where
  updateWindowDims := []
  insertedWindowDims := [0]
  scatterDimsToOperandDims := [0]
  indexVectorDim := 1

/-- The row scatter's dimension numbers: update (e, k) goes to element (idx(e, 0), k). -/
def dRow : ScatterDims SND SE1 SED where
  updateWindowDims := [1]
  insertedWindowDims := [0]
  scatterDimsToOperandDims := [0]
  indexVectorDim := 1

/-! ## Where an update lands -/

/-- The counting scatter reads update e's bucket number at (e, 0) of the column. -/
theorem dDeg_siIdx (j : SE.Idx) (c : Fin dDeg.scatterDimsToOperandDims.length) :
    dDeg.siIdx j c = ix2 (j 0) (0 : Fin 1) := by
  funext b
  match b with
  | ⟨0, _⟩ => rfl
  | ⟨1, _⟩ => exact Fin.ext (by simp [ScatterDims.siIdx]; omega)

/-- The row scatter reads update (e, k)'s bucket number at (e, 0) of the column. -/
theorem dRow_siIdx (j : SED.Idx) (c : Fin dRow.scatterDimsToOperandDims.length) :
    dRow.siIdx j c = ix2 (j 0) (0 : Fin 1) := by
  funext b
  match b with
  | ⟨0, _⟩ => rfl
  | ⟨1, _⟩ => exact Fin.ext (by simp [ScatterDims.siIdx]; omega)

theorem dDeg_start {w : Nat} (j : SE.Idx) (idx : IVec SE1 w) :
    dDeg.start j idx 0 = (idx (ix2 (j 0) (0 : Fin 1))).toInt := by
  unfold ScatterDims.start
  rw [dif_pos (by decide), dDeg_siIdx]
  rfl

theorem dRow_start0 {w : Nat} (j : SED.Idx) (idx : IVec SE1 w) :
    dRow.start j idx 0 = (idx (ix2 (j 0) (0 : Fin 1))).toInt := by
  unfold ScatterDims.start
  rw [dif_pos (by decide), dRow_siIdx]
  rfl

theorem dDeg_window (j : SE.Idx) : dDeg.window j 0 = 0 := by
  unfold ScatterDims.window
  rw [dif_neg (by decide)]

theorem dRow_window0 (j : SED.Idx) : dRow.window j 0 = 0 := by
  unfold ScatterDims.window
  rw [dif_neg (by decide)]

/-- An update (e, k) of the row scatter that lands on element (n, q) comes from edge e, and edge e's update of the
    counting scatter lands on bucket n: both read the same bucket number, and the bucket axis carries no window
    offset in either scatter. -/
theorem deg_hit_of_row_hit {w : Nat} (e : Fin 640000) (k : Fin 128) (idx : IVec SE1 w) (n : Fin 10000) (q : Fin 128)
    (h : dRow.resultIdx? (ix2 e k) idx = some (ix2 n q)) : dDeg.resultIdx? (ix1 e) idx = some (ix1 n) := by
  have sRow : dRow.start (ix2 e k) idx 0 = (idx (ix2 e (0 : Fin 1))).toInt := dRow_start0 (ix2 e k) idx
  have sDeg : dDeg.start (ix1 e) idx 0 = (idx (ix2 e (0 : Fin 1))).toInt := dDeg_start (ix1 e) idx
  unfold ScatterDims.resultIdx? at h
  split at h
  · rename_i hall
    have h0 := hall 0
    rw [sRow, dRow_window0] at h0
    have hi : n.val = ((idx (ix2 e (0 : Fin 1))).toInt + ((0 : Nat) : Int)).toNat := by
      have := congrArg Fin.val (congrFun (Option.some.inj h) 0)
      rw [← sRow, ← dRow_window0 (ix2 e k)]
      exact this.symm
    unfold ScatterDims.resultIdx?
    have hall' : ∀ a : Fin SN.rank, 0 ≤ dDeg.start (ix1 e) idx a + (dDeg.window (ix1 e) a : Int)
        ∧ dDeg.start (ix1 e) idx a + (dDeg.window (ix1 e) a : Int) < SN.size a := by
      intro a
      match a with
      | ⟨0, _⟩ =>
        show 0 ≤ dDeg.start (ix1 e) idx 0 + (dDeg.window (ix1 e) 0 : Int)
          ∧ dDeg.start (ix1 e) idx 0 + (dDeg.window (ix1 e) 0 : Int) < (10000 : Nat)
        rw [sDeg, dDeg_window]
        exact h0
    rw [dif_pos hall']
    refine congrArg some (funext fun a => Fin.ext ?_)
    match a with
    | ⟨0, _⟩ =>
      show (dDeg.start (ix1 e) idx 0 + (dDeg.window (ix1 e) 0 : Int)).toNat = n.val
      rw [sDeg, dDeg_window, hi]
  · exact absurd h (by simp)

/-! ## The count and the mean -/

/-- A sum of ones over a finite set is its cardinality. -/
theorem sum_one {α : Type} (S : Finset α) : ∑ _j ∈ S, (1 : EReal) = ((S.card : ℝ) : EReal) := by
  classical
  induction S using Finset.induction_on with
  | empty => simp
  | insert a s ha ih =>
    rw [Finset.sum_insert ha, ih, Finset.card_insert_of_notMem ha, ← EReal.coe_one, ← EReal.coe_add]
    congr 1
    push_cast
    ring

/-- The scalar law: if the row sum A vanishes whenever the count c does, multiplying A by 1 / max c 1 is
    selecting A / max c 1 where c is positive and 0 elsewhere. -/
theorem mean_scalar (A : EReal) (c : ℕ) (h0 : c = 0 → A = 0) :
    A * Ideal.div 1 (max ((c : ℝ) : EReal) 1)
      = if (0 : EReal) < ((c : ℝ) : EReal) then Ideal.div A (max ((c : ℝ) : EReal) 1) else 0 := by
  rcases Nat.eq_zero_or_pos c with hc | hc
  · subst hc
    rw [h0 rfl]
    simp
  · have hc1 : (1 : ℝ) ≤ c := by exact_mod_cast hc
    have hmax : max ((c : ℝ) : EReal) 1 = ((c : ℝ) : EReal) := max_eq_left (by exact_mod_cast hc1)
    have hne : (c : ℝ) ≠ 0 := by positivity
    have hpos : (0 : EReal) < ((c : ℝ) : EReal) := by exact_mod_cast hc
    rw [hmax, if_pos hpos, Ideal.div_coe hne, Ideal.div_coe hne, one_mul]

open Classical in
/-- The count at bucket n: the number of edges whose update lands on n. -/
def count {w : Nat} (idx : IVec SE1 w) (n : Fin 10000) : ℕ :=
  (Finset.univ.filter (fun j : SE.Idx => dDeg.resultIdx? j idx = some (ix1 n))).card

open Classical in
/-- The counting scatter of ones into zeros is the count. -/
theorem deg_eq_count {w : Nat} (idx : IVec SE1 w) (n : Fin 10000) :
    Ideal.hostScatterAdd dDeg (fun _ => (0 : EReal)) idx (fun _ => (1 : EReal)) (ix1 n) = ((count idx n : ℝ) : EReal) := by
  unfold Ideal.hostScatterAdd count
  rw [zero_add, sum_one]

open Classical in
/-- Where the count is zero the row scatter into zeros is zero: no update lands there. -/
theorem row_eq_zero_of_count {w : Nat} (idx : IVec SE1 w) (upd : SED.Idx → EReal) (n : Fin 10000) (q : Fin 128)
    (hc : count idx n = 0) :
    Ideal.hostScatterAdd dRow (fun _ => (0 : EReal)) idx upd (ix2 n q) = 0 := by
  unfold Ideal.hostScatterAdd
  rw [zero_add]
  refine Finset.sum_eq_zero fun j hj => ?_
  exfalso
  obtain ⟨e, k, rfl⟩ : ∃ (e : Fin 640000) (k : Fin 128), j = ix2 e k := ⟨j 0, j 1, eq_ix2 j⟩
  have hrow := (Finset.mem_filter.1 hj).2
  have hdeg := deg_hit_of_row_hit e k idx n q hrow
  have hmem : ix1 e ∈ Finset.univ.filter (fun j : SE.Idx => dDeg.resultIdx? j idx = some (ix1 n)) :=
    Finset.mem_filter.2 ⟨Finset.mem_univ _, hdeg⟩
  unfold count at hc
  rw [Finset.card_eq_zero] at hc
  rw [hc] at hmem
  exact absurd hmem (Finset.notMem_empty _)

/-- THE LAW: the row sum times the reciprocal of max(count, 1) is the row sum over max(count, 1) where the count is
    positive and 0 elsewhere. -/
theorem mean_law {w : Nat} (idx : IVec SE1 w) (upd : SED.Idx → EReal) (n : Fin 10000) (q : Fin 128) :
    Ideal.hostScatterAdd dRow (fun _ => (0 : EReal)) idx upd (ix2 n q)
        * Ideal.div 1 (max (Ideal.hostScatterAdd dDeg (fun _ => (0 : EReal)) idx (fun _ => (1 : EReal)) (ix1 n)) 1)
      = if (0 : EReal) < Ideal.hostScatterAdd dDeg (fun _ => (0 : EReal)) idx (fun _ => (1 : EReal)) (ix1 n) then
          Ideal.div (Ideal.hostScatterAdd dRow (fun _ => (0 : EReal)) idx upd (ix2 n q))
            (max (Ideal.hostScatterAdd dDeg (fun _ => (0 : EReal)) idx (fun _ => (1 : EReal)) (ix1 n)) 1)
        else 0 := by
  rw [deg_eq_count]
  exact mean_scalar _ _ (row_eq_zero_of_count idx upd n q)

end Cert.SegMean

end
-- ==== Proof.Spec.lean ====
/-
  The result both programs compute, as one function of arrays, index by index, on the extended reals.

  With A the per-node sums of neighbour features [10000, 128], r a column [10000, 1] of per-node scale factors, X the node
  features [10000, 128], Wl and Wr two [128, 128] weight matrices and b a bias row [1, 128]:

      combine A r X Wl b Wr (p, q)
        = X(p, q) + ( ( Σ_k (A(p, k) · r(p, 0)) · Wl(q, k)  +  Σ_k X(p, k) · Wr(q, k) ) + b(0, q) ) ,

  the residual plus the two projections (each contracting the weights' second axis) plus the bias.
  `colInv` is the column of reciprocals 1 / max(c, 1) of a count vector c, and `rowOf` a vector laid as one row.
-/
import Idealize.ShloMosaic.PureOps.Ideal
import Idealize.ShloMosaic.Lib.ValueIdx

noncomputable section

namespace Cert.Sage

open Idealize.ShloMosaic Idealize.ShloMosaic.ValueIdx

/-- The result at node p, output feature q. -/
def combineAt (A : (⟨2, ![10000, 128]⟩ : Shape).Idx → EReal) (r : (⟨2, ![10000, 1]⟩ : Shape).Idx → EReal)
    (X : (⟨2, ![10000, 128]⟩ : Shape).Idx → EReal) (Wl : (⟨2, ![128, 128]⟩ : Shape).Idx → EReal)
    (b : (⟨2, ![1, 128]⟩ : Shape).Idx → EReal) (Wr : (⟨2, ![128, 128]⟩ : Shape).Idx → EReal)
    (p : Fin 10000) (q : Fin 128) : EReal :=
  X (ix2 p q) + (((∑ k : Fin 128, (A (ix2 p k) * r (ix2 p (0 : Fin 1))) * Wl (ix2 q k))
    + ∑ k : Fin 128, X (ix2 p k) * Wr (ix2 q k)) + b (ix2 (0 : Fin 1) q))

/-- The whole result array. -/
def combine (A : (⟨2, ![10000, 128]⟩ : Shape).Idx → EReal) (r : (⟨2, ![10000, 1]⟩ : Shape).Idx → EReal)
    (X : (⟨2, ![10000, 128]⟩ : Shape).Idx → EReal) (Wl : (⟨2, ![128, 128]⟩ : Shape).Idx → EReal)
    (b : (⟨2, ![1, 128]⟩ : Shape).Idx → EReal) (Wr : (⟨2, ![128, 128]⟩ : Shape).Idx → EReal) :
    (⟨2, ![10000, 128]⟩ : Shape).Idx → EReal :=
  fun i => combineAt A r X Wl b Wr ⟨(i 0).val, (i 0).isLt⟩ ⟨(i 1).val, (i 1).isLt⟩

theorem combine_ix2 (A : (⟨2, ![10000, 128]⟩ : Shape).Idx → EReal) (r : (⟨2, ![10000, 1]⟩ : Shape).Idx → EReal)
    (X : (⟨2, ![10000, 128]⟩ : Shape).Idx → EReal) (Wl : (⟨2, ![128, 128]⟩ : Shape).Idx → EReal)
    (b : (⟨2, ![1, 128]⟩ : Shape).Idx → EReal) (Wr : (⟨2, ![128, 128]⟩ : Shape).Idx → EReal) (p : Fin 10000) (q : Fin 128) :
    combine A r X Wl b Wr (ix2 p q) = combineAt A r X Wl b Wr p q := rfl

/-- The column of reciprocals of max(count, 1). -/
def colInv (c : (⟨1, ![10000]⟩ : Shape).Idx → EReal) : (⟨2, ![10000, 1]⟩ : Shape).Idx → EReal :=
  fun i => Ideal.div 1 (max (c (ix1 (⟨(i 0).val, (i 0).isLt⟩ : Fin 10000))) 1)

theorem colInv_ix2 (c : (⟨1, ![10000]⟩ : Shape).Idx → EReal) (p : Fin 10000) (u : Fin 1) :
    colInv c (ix2 p u) = Ideal.div 1 (max (c (ix1 p)) 1) := rfl

/-- A vector laid as one row. -/
def rowOf (b : (⟨1, ![128]⟩ : Shape).Idx → EReal) : (⟨2, ![1, 128]⟩ : Shape).Idx → EReal :=
  fun i => b (ix1 (⟨(i 1).val, (i 1).isLt⟩ : Fin 128))

theorem rowOf_ix2 (b : (⟨1, ![128]⟩ : Shape).Idx → EReal) (u : Fin 1) (q : Fin 128) :
    rowOf b (ix2 u q) = b (ix1 q) := rfl

end Cert.Sage

end
-- ==== Proof.RefValue.lean ====
/-
  The reference's result is `combine` of its own intermediate arrays.

  The reference aggregates neighbour features into per-node sums (an accumulating scatter of gathered rows), counts the
  neighbours (an accumulating scatter of ones through the same column of bucket numbers), takes the mean where the count
  is positive and 0 elsewhere, and returns  X + ((mean · Wlᵀ + b) + X · Wrᵀ).

  Read at node p and feature k, the masked mean is
      select (count p > 0) (sum(p, k) / max (count p) 1) 0 ,
  which by the segment-mean law is  sum(p, k) · (1 / max (count p) 1): the sums times the column of reciprocal counts.
  The two matrix products contract the second axis of the weights (the reference transposes them first), and the three
  summands of the result are regrouped by commutativity and associativity of addition on the extended reals.
-/
import proofs.«107446_j6691559047585_1_alg».proof.Proof.RefRead
import proofs.«107446_j6691559047585_1_alg».proof.Proof.SegMean
import proofs.«107446_j6691559047585_1_alg».proof.Proof.Spec
import Idealize.ShloMosaic.Lib.IdealHost

noncomputable section

namespace Cert.ReferenceIdeal.RefValue

open Cert.ReferenceIdeal Cert.ReferenceIdeal.ReadP Idealize.ShloMosaic Idealize.ShloMosaic.ValueIdx Cert.Sage Cert.SegMean

/-! ## The two scatters start from zeros, and the count adds ones -/

theorem zeros_v11 : (val_main_v11 (F := Ideal)) = fun _ => (0 : EReal) := funext fun i => by
  rw [val_main_v11_apply, val_main_cst_apply]; exact Ideal.ofBits_zero_f32

theorem zeros_v15 : (val_main_v15 (F := Ideal)) = fun _ => (0 : EReal) := funext fun i => by
  rw [val_main_v15_apply, val_main_cst_2_apply]; exact Ideal.ofBits_zero_f32

theorem ones_v14 : (val_main_v14 (F := Ideal)) = fun _ => (1 : EReal) := funext fun i => by
  rw [val_main_v14_apply, val_main_cst_1_apply]; exact Ideal.ofBits_one_f32

/-- The per-node sums are the exact row scatter of the gathered rows into zeros. -/
theorem v13_eq (x0 : (⟨S10000x128, .f32⟩ : BufTy).Contents (Elt Ideal)) (x1 : (⟨S2x640000, .i32⟩ : BufTy).Contents (Elt Ideal)) :
    val_main_v13 (F := Ideal) x0 x1
      = Ideal.hostScatterAdd dRow (fun _ => (0 : EReal)) (val_main_v12 (F := Ideal) x1) (val_main_v10 (F := Ideal) x0 x1) := by
  unfold val_main_v13
  rw [zeros_v11]
  rfl

/-- The counts are the exact counting scatter of ones into zeros, through the same column of bucket numbers. -/
theorem v17_eq (x1 : (⟨S2x640000, .i32⟩ : BufTy).Contents (Elt Ideal)) :
    val_main_v17 (F := Ideal) x1
      = Ideal.hostScatterAdd dDeg (fun _ => (0 : EReal)) (val_main_v12 (F := Ideal) x1) (fun _ => (1 : EReal)) := by
  unfold val_main_v17
  rw [zeros_v15, ones_v14]
  rfl

/-- Selecting on "greater than zero" is the conditional on the order of the extended reals. -/
theorem select_ogt (d a b : EReal) : Scalar.select (Ideal.cmp .ogt d 0) a b = if (0 : EReal) < d then a else b := by
  unfold Scalar.select Ideal.cmp
  by_cases h : (0 : EReal) < d <;> simp [h]

/-- The masked mean at (p, k) is the sum times the reciprocal of max(count, 1). -/
theorem v26_apply (x0 : (⟨S10000x128, .f32⟩ : BufTy).Contents (Elt Ideal)) (x1 : (⟨S2x640000, .i32⟩ : BufTy).Contents (Elt Ideal))
    (p : Fin 10000) (k : Fin 128) :
    val_main_v26 (F := Ideal) x0 x1 (ix2 p k)
      = val_main_v13 (F := Ideal) x0 x1 (ix2 p k) * colInv (val_main_v17 (F := Ideal) x1) (ix2 p (0 : Fin 1)) := by
  rw [val_main_v26_apply, val_main_call0_v1_apply, val_main_v20_apply, val_main_v18_apply, val_main_v19_apply, val_main_cst_3_apply,
    val_main_v25_apply, val_main_v24_apply, val_main_v23_apply, val_main_v22_apply, val_main_v21_apply, val_main_cst_4_apply,
    val_main_call0_v2_apply, val_main_call0_v0_apply, val_main_cst_5_apply]
  have e1 : idx_main_v18 (idx_main_call0_v1 (ix2 p k)) = ix1 p := funext fun a => match a with | ⟨0, _⟩ => rfl
  have e2 : idx_main_v23 (idx_main_v24 (ix2 p k)) = ix1 p := funext fun a => match a with | ⟨0, _⟩ => rfl
  rw [e1, e2, colInv_ix2]
  show Scalar.select (Ideal.cmp .ogt (val_main_v17 (F := Ideal) x1 (ix1 p)) (Ideal.ofBits .f32 0x00000000#32))
      (Ideal.div (val_main_v13 (F := Ideal) x0 x1 (ix2 p k)) (max (val_main_v17 (F := Ideal) x1 (ix1 p)) (Ideal.ofBits .f32 0x3F800000#32)))
      (Ideal.ofBits .f32 0x00000000#32) = _
  rw [Ideal.ofBits_zero_f32, Ideal.ofBits_one_f32, select_ogt, v13_eq, v17_eq]
  exact (mean_law _ _ p k).symm

/-- THE REFERENCE'S RESULT: `combine` of its sums, the column of reciprocal counts, the features, the weights and the
    bias laid as a row. -/
theorem ref_eq (x0 : (⟨S10000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v35 (F := Ideal) x0 x1 x2 x3 x4
      = combine (val_main_v13 (F := Ideal) x0 x1) (colInv (val_main_v17 (F := Ideal) x1)) x0 x2 (rowOf x3) x4 := by
  funext i
  obtain ⟨p, q, rfl⟩ : ∃ (p : Fin 10000) (q : Fin 128), i = ix2 p q := ⟨i 0, i 1, eq_ix2 i⟩
  rw [combine_ix2]
  unfold combineAt
  rw [val_main_v35_apply, val_main_v34_apply, val_main_v31_apply, val_main_v28_apply, val_main_v33_apply, val_main_v30_apply,
    val_main_v29_apply]
  have l28 : ∀ k : Fin 128, lidx_main_v28 (ix2 p q) k = ix2 p k := fun k =>
    funext fun a => match a with | ⟨0, _⟩ => rfl | ⟨1, _⟩ => rfl
  have r28 : ∀ k : Fin 128, ridx_main_v28 (ix2 p q) k = ix2 k q := fun k =>
    funext fun a => match a with | ⟨0, _⟩ => rfl | ⟨1, _⟩ => rfl
  have l33 : ∀ k : Fin 128, lidx_main_v33 (ix2 p q) k = ix2 p k := fun k =>
    funext fun a => match a with | ⟨0, _⟩ => rfl | ⟨1, _⟩ => rfl
  have r33 : ∀ k : Fin 128, ridx_main_v33 (ix2 p q) k = ix2 k q := fun k =>
    funext fun a => match a with | ⟨0, _⟩ => rfl | ⟨1, _⟩ => rfl
  have e3 : idx_main_v29 (idx_main_v30 (ix2 p q)) = ix1 q := funext fun a => match a with | ⟨0, _⟩ => rfl
  have t27 : ∀ k : Fin 128, idx_main_v27 (ix2 k q) = ix2 q k := fun k =>
    funext fun a => match a with | ⟨0, _⟩ => rfl | ⟨1, _⟩ => rfl
  have t32 : ∀ k : Fin 128, idx_main_v32 (ix2 k q) = ix2 q k := fun k =>
    funext fun a => match a with | ⟨0, _⟩ => rfl | ⟨1, _⟩ => rfl
  simp only [l28, r28, l33, r33, e3, val_main_v27_apply, val_main_v32_apply, v26_apply, rowOf_ix2, t27, t32]
  show x0 (ix2 p q) + ((_ + x3 (ix1 q)) + _) = _
  rw [add_right_comm]

end Cert.ReferenceIdeal.RefValue

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.Entry.lean ====
/-
  The arrays the kernel's region finds, in the reference's terms.

  Before the region the kernel's program runs the same host operations as the reference on the same arguments: the
  gather of source rows and their accumulating scatter into per-node sums, and the accumulating scatter of ones into
  per-node counts. So the region finds the per-node sums equal to the reference's sums, the column it is given equal to
  the column of reciprocals 1 / max(count, 1) of the reference's counts (a [10000] vector of quotients cast to a column),
  and the bias as one row (a [128] vector cast to [1, 128]).
-/
import proofs.«107446_j6691559047585_1_alg».proof.Proof.Gen.KernelIdeal.Frame
import proofs.«107446_j6691559047585_1_alg».proof.Proof.RefRead
import proofs.«107446_j6691559047585_1_alg».proof.Proof.Spec
import proofs.«107446_j6691559047585_1_alg».proof.Proof.LibKeepdims
import Idealize.ShloMosaic.Lib.StableHlo.Run
import Idealize.ShloMosaic.Lib.Pipeline.Value
import Idealize.ShloMosaic.Lib.ValueLayout
import Idealize.ShloMosaic.Lib.IdealHost

noncomputable section

namespace Cert.KernelIdeal.Entry

open Cert.KernelIdeal Cert.KernelIdeal.Gen Idealize.ShloMosaic Idealize.ShloMosaic.TcCoe Idealize.SL.Sem
open Idealize.ShloMosaic.ValueIdx Cert.Sage

variable (m : (ℓ : Loc nD τ sig) → Buf (Elt Ideal) ℓ)

/-- The per-node sums the region finds are the reference's, of the same arguments. -/
theorem V_agg (c : Dev nD) : (V m c main_v13 : S10000x128.Idx → EReal)
    = Cert.ReferenceIdeal.ReadP.val_main_v13 (F := Ideal) (m ((c : Thread nD τ).loc main_arg0)) (m ((c : Thread nD τ).loc main_arg1)) := by
  dsimp only [Gen.V, Gen.hostOps0]
  after_results
  rfl

/-- A splat of the pattern of 1.0 reads 1 everywhere. -/
theorem ones_apply (i : S10000.Idx) :
    broadcastInDim S10000 ![] bcast_S_S10000 (constant (F := Ideal) S_ .f32 0x3F800000#32) i = (1 : EReal) :=
  (broadcastInDim_apply _ bcast_S_S10000 _ i (fun a => a.elim0) (fun a => a.elim0)).trans Ideal.ofBits_one_f32

/-- The quotients 1 / max(count, 1) as a [10000] vector, cast to a column, are the column of reciprocals. -/
theorem col_eq (cnt : FVec Ideal S10000 .f32) :
    shapeCast S10000x1 (Host.divf (F := Ideal) (broadcastInDim S10000 ![] bcast_S_S10000 (constant (F := Ideal) S_ .f32 0x3F800000#32))
        (maximumf cnt (broadcastInDim S10000 ![] bcast_S_S10000 (constant (F := Ideal) S_ .f32 0x3F800000#32)))) shapeCasts_S10000_S10000x1
      = colInv cnt := by
  funext i
  obtain ⟨p, u, rfl⟩ : ∃ (p : Fin 10000) (u : Fin 1), i = ix2 p u := ⟨i 0, i 1, eq_ix2 i⟩
  rw [colInv_ix2, Cert.LibKeepdims.shapeCast_a_a1_apply, hostDivf_apply, maximumf_apply, ones_apply]

/-- The column the region finds is the column of reciprocals of max(count, 1), of the reference's counts. -/
theorem V_inv (c : Dev nD) : (V m c main_v22 : S10000x1.Idx → EReal)
    = colInv (Cert.ReferenceIdeal.ReadP.val_main_v17 (F := Ideal) (m ((c : Thread nD τ).loc main_arg1))) := by
  have e : (V m c main_v22 : S10000x1.Idx → EReal)
      = shapeCast S10000x1 (Host.divf (F := Ideal) (broadcastInDim S10000 ![] bcast_S_S10000 (constant (F := Ideal) S_ .f32 0x3F800000#32))
          (maximumf (Cert.ReferenceIdeal.ReadP.val_main_v17 (F := Ideal) (m ((c : Thread nD τ).loc main_arg1)))
            (broadcastInDim S10000 ![] bcast_S_S10000 (constant (F := Ideal) S_ .f32 0x3F800000#32)))) shapeCasts_S10000_S10000x1 := by
    dsimp only [Gen.V, Gen.hostOps0]
    after_results
    rfl
  exact e.trans (col_eq _)

/-- A [128] vector cast to [1, 128] is the vector laid as one row. -/
theorem row_eq (b : FVec Ideal S128 .f32) : shapeCast S1x128 b shapeCasts_S128_S1x128 = rowOf b := by
  funext i
  obtain ⟨u, q, rfl⟩ : ∃ (u : Fin 1) (q : Fin 128), i = ix2 u q := ⟨i 0, i 1, eq_ix2 i⟩
  rw [rowOf_ix2]
  exact shapeCast_a_1a_apply _ _ u q

/-- The bias the region finds is the bias vector laid as one row. -/
theorem V_bias (c : Dev nD) : (V m c main_v23 : S1x128.Idx → EReal) = rowOf (m ((c : Thread nD τ).loc main_arg3)) := by
  have e : (V m c main_v23 : S1x128.Idx → EReal) = shapeCast S1x128 (m ((c : Thread nD τ).loc main_arg3)) shapeCasts_S128_S1x128 := by
    dsimp only [Gen.V, Gen.hostOps0]
    after_results
    rfl
  exact e.trans (row_eq _)

end Cert.KernelIdeal.Entry

end
-- ==== Proof.KernelPayload.lean ====
/-
  The kernel body's value at an index, at the exact instance.

  One grid point of the kernel holds a block of 2000 rows. From the blocks it loads — the aggregated row sums A
  [2000, 128], the reciprocal counts r [2000, 1], the features X [2000, 128], the two weight matrices Wl, Wr [128, 128]
  and the bias b [1, 128] — it stores

      X(p, q) + ( ( Σ_k (A(p, k) · r(p, 0)) · Wl(q, k)  +  Σ_k X(p, k) · Wr(q, k) ) + b(0, q) ) .

  The roundings to bf16 are the identity on extended reals; the column r is broadcast along the row; each weight matrix
  is transposed before it enters the matrix product, so the product contracts the weights' SECOND axis; each product
  accumulates into a zero block, which adds nothing.
-/
import proofs.«107446_j6691559047585_1_alg».proof.Proof.Gen.KernelIdeal.Skeleton
import proofs.«107446_j6691559047585_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The product's left index: output row, contracted coordinate. -/
theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The product's right index: contracted coordinate, output column. -/
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's matrix product: rows [2000, 128] against a TRANSPOSED [128, 128] weight matrix, into a zero block.
    At (p, q) it is the sum over k of the row entry (p, k) times the weight entry (q, k). -/
theorem matmul_transposed_apply (l : FVec Ideal S2000x128 .bf16) (wgt : FVec Ideal S128x128 .bf16) (p : Fin 2000) (q : Fin 128) :
    matmul dot_S2000x128_S128x128_S2000x128_1_0_0_1_n_n none l
        (transpose S128x128 [1, 0] wgt transposes_S128x128_p1_0_S128x128) (constant S2000x128 .f32 0x00000000#32) (ix2 p q)
      = ∑ k : Fin 128, l (ix2 p k) * wgt (ix2 q k) := by
  refine (Ideal.matmul_constant_zero_apply dot_S2000x128_S128x128_S2000x128_1_0_0_1_n_n none l _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_0 _ _
      | ⟨1, _⟩ => exact (lhs_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er, transpose_ix2_apply]

/-- The stored value at (p, q) of the block. -/
theorem pay_apply (v0 : Vec Ideal S2000x128 .f32) (v2 : Vec Ideal S2000x1 .f32) (v4 : Vec Ideal S2000x128 .f32)
    (v9 v11 : Vec Ideal S128x128 .f32) (v18 : Vec Ideal S1x128 .f32) (p : Fin 2000) (q : Fin 128) :
    k0_pay1 (F := Ideal) v0 v2 v4 v9 v11 v18 (ix2 p q)
      = v4 (ix2 p q) + (((∑ k : Fin 128, (v0 (ix2 p k) * v2 (ix2 p (0 : Fin 1))) * v9 (ix2 q k))
          + ∑ k : Fin 128, v4 (ix2 p k) * v11 (ix2 q k)) + v18 (ix2 (0 : Fin 1) q)) := by
  unfold k0_pay1
  simp only [shapeCast_self]
  refine congrArg (v4 (ix2 p q) + ·) ?_
  refine congrArg₂ (· + ·) (congrArg₂ (· + ·) ?_ ?_) ?_
  · refine (matmul_transposed_apply _ _ p q).trans (Finset.sum_congr rfl fun k _ => ?_)
    refine congrArg₂ (· * ·) ?_ rfl
    exact congrArg (v0 (ix2 p k) * ·) (Cert.LibKeepdims.broadcastTo_a1_ab_apply v2 broadcasts_S2000x1_S2000x128 p k)
  · exact matmul_transposed_apply _ _ p q
  · exact broadcastTo_1b_ab_apply v18 broadcasts_S1x128_S2000x128 p q

end Cert.KernelIdeal.Pay

end
-- ==== Proof.KernelBlocks.lean ====
/-
  What one grid point of the kernel writes back, in terms of the whole arrays.

  The grid has 5 points; point t handles rows 2000·t … 2000·t + 1999 of the node arrays (the aggregated sums, the column
  of reciprocal counts, the features, the result) and sees the two weight matrices and the bias row whole. Entry (p, q)
  of the block point t writes back is the body's value on the point's blocks, and each block entry is an entry of its
  whole array — row 2000·t + p for the node arrays, the same entry for the weights and the bias. So the block is block t
  of `combine` of the arrays as the region finds them.
-/
import proofs.«107446_j6691559047585_1_alg».proof.Proof.Gen.KernelIdeal.Value
import proofs.«107446_j6691559047585_1_alg».proof.Proof.KernelPayload
import proofs.«107446_j6691559047585_1_alg».proof.Proof.Spec
import Idealize.ShloMosaic.Lib.Pipeline.Value
import Idealize.ShloMosaic.Lib.ValueIdx

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Sage
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the node arrays' blocks move with the point along the rows, the weights and the
    bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The arrays the region finds, combined. -/
def G (c : Dev nD) : S10000x128.Idx → EReal :=
  combine (V m c main_v13) (V m c main_v22) (V m c main_arg0) (V m c main_arg2) (V m c main_v23) (V m c main_arg4)

/-! ## Each window's block at a point, as rows of its array -/

theorem read_agg (c : Dev nD) (t : Fin cfg0.N) (p : Fin 2000) (k : Fin 128) (n : Fin 10000) (hn : n.val = 2000 * t.val + p.val) :
    (iblk m c 0 t : Vec Ideal S2000x128 .f32) (ix2 p k) = (V m c main_v13 : S10000x128.Idx → EReal) (ix2 n k) := by
  obtain ⟨e0, e1, -⟩ := idx_facts t
  unfold iblk
  rw [View.read_apply]
  show V m c main_v13 _ = V m c main_v13 _
  refine congrArg (V m c main_v13) (funext fun a => Fin.ext ?_)
  match a with
  | ⟨0, _⟩ => show win0_0.index t (0 : Fin 2) * 2000 + 1 * p.val = n.val; rw [e0, hn]; omega
  | ⟨1, _⟩ => show win0_0.index t (1 : Fin 2) * 128 + 1 * k.val = k.val; rw [e1]; omega

theorem read_inv (c : Dev nD) (t : Fin cfg0.N) (p : Fin 2000) (u : Fin 1) (n : Fin 10000) (hn : n.val = 2000 * t.val + p.val) :
    (iblk m c 1 t : Vec Ideal S2000x1 .f32) (ix2 p u) = (V m c main_v22 : S10000x1.Idx → EReal) (ix2 n u) := by
  obtain ⟨-, -, e0, e1, -⟩ := idx_facts t
  unfold iblk
  rw [View.read_apply]
  show V m c main_v22 _ = V m c main_v22 _
  refine congrArg (V m c main_v22) (funext fun a => Fin.ext ?_)
  match a with
  | ⟨0, _⟩ => show win0_1.index t (0 : Fin 2) * 2000 + 1 * p.val = n.val; rw [e0, hn]; omega
  | ⟨1, _⟩ => show win0_1.index t (1 : Fin 2) * 1 + 1 * u.val = u.val; rw [e1]; omega

theorem read_x (c : Dev nD) (t : Fin cfg0.N) (p : Fin 2000) (k : Fin 128) (n : Fin 10000) (hn : n.val = 2000 * t.val + p.val) :
    (iblk m c 2 t : Vec Ideal S2000x128 .f32) (ix2 p k) = (V m c main_arg0 : S10000x128.Idx → EReal) (ix2 n k) := by
  obtain ⟨-, -, -, -, e0, e1, -⟩ := idx_facts t
  unfold iblk
  rw [View.read_apply]
  show V m c main_arg0 _ = V m c main_arg0 _
  refine congrArg (V m c main_arg0) (funext fun a => Fin.ext ?_)
  match a with
  | ⟨0, _⟩ => show win0_2.index t (0 : Fin 2) * 2000 + 1 * p.val = n.val; rw [e0, hn]; omega
  | ⟨1, _⟩ => show win0_2.index t (1 : Fin 2) * 128 + 1 * k.val = k.val; rw [e1]; omega

theorem read_wl (c : Dev nD) (t : Fin cfg0.N) (a b : Fin 128) :
    (iblk m c 3 t : Vec Ideal S128x128 .f32) (ix2 a b) = (V m c main_arg2 : S128x128.Idx → EReal) (ix2 a b) := by
  obtain ⟨-, -, -, -, -, -, e0, e1, -⟩ := idx_facts t
  unfold iblk
  rw [View.read_apply]
  show V m c main_arg2 _ = V m c main_arg2 _
  refine congrArg (V m c main_arg2) (funext fun ax => Fin.ext ?_)
  match ax with
  | ⟨0, _⟩ => show win0_3.index t (0 : Fin 2) * 128 + 1 * a.val = a.val; rw [e0]; omega
  | ⟨1, _⟩ => show win0_3.index t (1 : Fin 2) * 128 + 1 * b.val = b.val; rw [e1]; omega

theorem read_b (c : Dev nD) (t : Fin cfg0.N) (u : Fin 1) (q : Fin 128) :
    (iblk m c 4 t : Vec Ideal S1x128 .f32) (ix2 u q) = (V m c main_v23 : S1x128.Idx → EReal) (ix2 u q) := by
  obtain ⟨-, -, -, -, -, -, -, -, e0, e1, -⟩ := idx_facts t
  unfold iblk
  rw [View.read_apply]
  show V m c main_v23 _ = V m c main_v23 _
  refine congrArg (V m c main_v23) (funext fun ax => Fin.ext ?_)
  match ax with
  | ⟨0, _⟩ => show win0_4.index t (0 : Fin 2) * 1 + 1 * u.val = u.val; rw [e0]; omega
  | ⟨1, _⟩ => show win0_4.index t (1 : Fin 2) * 128 + 1 * q.val = q.val; rw [e1]; omega

theorem read_wr (c : Dev nD) (t : Fin cfg0.N) (a b : Fin 128) :
    (iblk m c 5 t : Vec Ideal S128x128 .f32) (ix2 a b) = (V m c main_arg4 : S128x128.Idx → EReal) (ix2 a b) := by
  obtain ⟨-, -, -, -, -, -, -, -, -, -, e0, e1, -⟩ := idx_facts t
  unfold iblk
  rw [View.read_apply]
  show V m c main_arg4 _ = V m c main_arg4 _
  refine congrArg (V m c main_arg4) (funext fun ax => Fin.ext ?_)
  match ax with
  | ⟨0, _⟩ => show win0_5.index t (0 : Fin 2) * 128 + 1 * a.val = a.val; rw [e0]; omega
  | ⟨1, _⟩ => show win0_5.index t (1 : Fin 2) * 128 + 1 * b.val = b.val; rw [e1]; omega

/-- Entry (p, q) of the result's block at point t sits at row 2000·t + p of the array. -/
theorem emb_out (t : Fin cfg0.N) (p : Fin 2000) (q : Fin 128) (n : Fin 10000) (hn : n.val = 2000 * t.val + p.val) :
    ((cfg0.win 6).blk t).view.emb (ix2 p q) = (ix2 n q : S10000x128.Idx) := by
  obtain ⟨-, -, -, -, -, -, -, -, -, -, -, -, e0, e1⟩ := idx_facts t
  refine funext fun ax => Fin.ext ?_
  match ax with
  | ⟨0, _⟩ => show win0_6.index t (0 : Fin 2) * 2000 + 1 * p.val = n.val; rw [e0, hn]; omega
  | ⟨1, _⟩ => show win0_6.index t (1 : Fin 2) * 128 + 1 * q.val = q.val; rw [e1]; omega

/-- WHAT POINT t WRITES BACK is block t of the combined arrays. -/
theorem flushed_eq (c : Dev nD) (t : Fin cfg0.N) :
    (dats m 0 c).flushed 6 t = ((cfg0.win 6).blk t).view.read (Elt Ideal) (G m c) := by
  rw [flushed6]
  unfold out0_6
  rw [View.canon_unit_zero hz]
  simp only [View.ld_unit_zero (S := S2000x128) hz, View.ld_unit_zero (S := S2000x1) hz, View.ld_unit_zero (S := S128x128) hz,
    View.ld_unit_zero (S := S1x128) hz]
  funext y
  obtain ⟨p, q, rfl⟩ : ∃ (p : Fin 2000) (q : Fin 128), y = ix2 p q := ⟨y 0, y 1, eq_ix2 y⟩
  have ht : t.val < 5 := by have := t.isLt; have hN : cfg0.N = 5 := N_0; omega
  have hp := p.isLt
  let n : Fin 10000 := ⟨2000 * t.val + p.val, by omega⟩
  show k0_pay1 (F := Ideal) (iblk m c 0 t) (iblk m c 1 t) (iblk m c 2 t) (iblk m c 3 t) (iblk m c 5 t) (iblk m c 4 t) (ix2 p q)
    = G m c (((cfg0.win 6).blk t).view.emb (ix2 p q))
  rw [emb_out t p q n rfl]
  refine (Pay.pay_apply (iblk m c 0 t) (iblk m c 1 t) (iblk m c 2 t) (iblk m c 3 t) (iblk m c 5 t) (iblk m c 4 t) p q).trans ?_
  unfold G
  rw [combine_ix2]
  unfold combineAt
  rw [read_x m c t p q n rfl, read_inv m c t p 0 n rfl, read_b m c t 0 q]
  simp only [read_agg m c t p _ n rfl, read_x m c t p _ n rfl, read_wl m c t q, read_wr m c t q]

end Cert.KernelIdeal.Whole

end
-- ==== Proof.KernelValue.lean ====
/-
  The kernel's result array, whole.

  Point t of the grid writes back block t of `combine` of the arrays the region finds (rows 2000·t … 2000·t + 1999).
  Row r of the result lies in the block of point r / 2000, so the five blocks tile the result array, and after the run
  the array is `combine` of those arrays; the arguments are unchanged.
-/
import proofs.«107446_j6691559047585_1_alg».proof.Proof.KernelBlocks

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Sage
open Idealize.ShloMosaic.Pipeline (Dat)

variable (m : (ℓ : Loc nD τ sig) → Buf (Elt Ideal) ℓ) (ρ : Dev nD → PrngReg)

/-! ## The blocks tile the result array -/

/-- An index of the array is in point t's block iff each coordinate is in the block's range on its axis. -/
theorem mem_blk (t : Fin cfg0.N) (i : S10000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v24).slice (win0_6.rect t)).set ↔ _
  rw [View.set_slice_whole, Rect.mem_set_unit]
  exact Iff.rfl

/-- Row r of the result belongs to the block of point r / 2000. -/
theorem cover (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 5 := N_0
  obtain ⟨t, ht⟩ : ∃ t : Fin cfg0.N, t.val = (i 0).val / 2000 := ⟨⟨(i 0).val / 2000, by rw [hN]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000
    rw [e0, ht]; omega
  | ⟨1, _⟩ =>
    show win0_6.index t (1 : Fin 2) * 128 ≤ (i 1).val ∧ (i 1).val < win0_6.index t (1 : Fin 2) * 128 + 128
    rw [e1]; omega

/-- THE RESULT ARRAY after the run: the combined arrays. -/
theorem final (c : Dev nD) : (dats m 0 c).arrAt 6 cfg0.N = G m c :=
  (dats m 0 c).arrAt_eq_of_cover 6 (G m c) (fun t _ => flushed_eq m c t) cover

/-- The kernel's run: the result array at the combined arrays, the arguments unchanged. -/
theorem run : θ_run defs (onTc (τ := τ) (main (F := Ideal))) ⟨m, fun _ => 0, ρ⟩ fun r => ∀ c : Dev nD,
      r.2.mem ((c : Thread nD τ).loc main_v24) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.lean ====
/-
  The proof of `Cert.Claim`: a fused graph-convolution epilogue against its plain reference.

  Both programs gather the source rows of 640000 edges, add them into 10000 per-node sums and count the edges per node,
  with the same host operations. The kernel then multiplies the sums by the column 1 / max(count, 1) inside a Pallas
  region tiled over the nodes, and adds the two projections (mean · Wlᵀ, X · Wrᵀ), the bias and the residual X; the
  reference divides the sums by max(count, 1) where the count is positive and puts 0 elsewhere, then does the same.

  On the extended reals the two results are one function of the arguments (`Cert.Sage.combine`):
    * the kernel's result array is `combine` of the arrays its region finds (Proof/KernelPayload, KernelBlocks,
      KernelValue), and those arrays are the reference's sums, the reciprocals of its counts and the bias (Proof/Entry);
    * the reference's result is `combine` of the same (Proof/RefValue), because a count is a natural number and a
      node counted zero times receives no row: sum · (1 / max c 1) = if 0 < c then sum / max c 1 else 0
      (Proof/SegMean). No finiteness of the inputs is used.
  The three frames are the generated ones (the reference's is its run with the result dropped); the ideal pass rewrote
  nothing, so `preserves` is trivial.
-/
import proofs.«107446_j6691559047585_1_alg».proof.Defs
import proofs.«107446_j6691559047585_1_alg».proof.Proof.Gen.Kernel
import proofs.«107446_j6691559047585_1_alg».proof.Proof.Gen.Kernel.Skeleton
import proofs.«107446_j6691559047585_1_alg».proof.Proof.Gen.Kernel.Launch
import proofs.«107446_j6691559047585_1_alg».proof.Proof.Gen.Kernel.Points
import proofs.«107446_j6691559047585_1_alg».proof.Proof.Gen.Kernel.Frame
import proofs.«107446_j6691559047585_1_alg».proof.Proof.Gen.KernelIdeal
import proofs.«107446_j6691559047585_1_alg».proof.Proof.Gen.KernelIdeal.Skeleton
import proofs.«107446_j6691559047585_1_alg».proof.Proof.Gen.KernelIdeal.Launch
import proofs.«107446_j6691559047585_1_alg».proof.Proof.Gen.KernelIdeal.Points
import proofs.«107446_j6691559047585_1_alg».proof.Proof.Gen.KernelIdeal.Frame
import proofs.«107446_j6691559047585_1_alg».proof.Proof.Gen.KernelIdeal.Value
import proofs.«107446_j6691559047585_1_alg».proof.Proof.Gen.ReferenceIdeal
import proofs.«107446_j6691559047585_1_alg».proof.Proof.Gen.Pre_finite_inputs
import proofs.«107446_j6691559047585_1_alg».proof.Proof.RefRun
import proofs.«107446_j6691559047585_1_alg».proof.Proof.RefRead
import proofs.«107446_j6691559047585_1_alg».proof.Proof.RefValue
import proofs.«107446_j6691559047585_1_alg».proof.Proof.Entry
import proofs.«107446_j6691559047585_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result array at `combine` of the reference's sums, the reciprocals of its counts, the
    features, the weights and the bias row, of arguments that agree. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v35_eq, Cert.ReferenceIdeal.RefValue.ref_eq,
    (hagree c).1, (hagree c).2.1, (hagree c).2.2.1, (hagree c).2.2.2.1, (hagree c).2.2.2.2]
  show _ = Cert.KernelIdeal.Whole.G m c
  unfold Cert.KernelIdeal.Whole.G
  rw [Cert.KernelIdeal.Entry.V_agg, Cert.KernelIdeal.Entry.V_inv, Cert.KernelIdeal.Entry.V_bias,
    Cert.KernelIdeal.Gen.V_main_arg0, Cert.KernelIdeal.Gen.V_main_arg2, Cert.KernelIdeal.Gen.V_main_arg4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
